-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S16384x3 : Shape := ⟨2, ![16384, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : FVec F S4x4096x3 .f32) (main_arg1 : FVec F S16384x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S4x4096x3 : Shape := ⟨3, ![4, 4096, 3]⟩
abbrev S16384x3 : Shape := ⟨2, ![16384, 3]⟩
abbrev S3x16384 : Shape := ⟨2, ![3, 16384]⟩
abbrev S16384 : Shape := ⟨1, ![16384]⟩
abbrev S2048x3 : Shape := ⟨2, ![2048, 3]⟩
abbrev S3x2048 : Shape := ⟨2, ![3, 2048]⟩
abbrev S2048 : Shape := ⟨1, ![2048]⟩
abbrev S512x3 : Shape := ⟨2, ![512, 3]⟩
abbrev S512 : Shape := ⟨1, ![512]⟩
abbrev S512x1 : Shape := ⟨2, ![512, 1]⟩
abbrev S1x2048 : Shape := ⟨2, ![1, 2048]⟩
abbrev S512x2048 : Shape := ⟨2, ![512, 2048]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S16384x3, .f32⟩
  | .hbm, ⟨2, _⟩ => ⟨S16384x3, .f32⟩
  | .hbm, ⟨3, _⟩ => ⟨S3x16384, .f32⟩
  | .hbm, ⟨4, _⟩ => ⟨S16384, .f32⟩
  | .hbm, ⟨5, _⟩ => ⟨S_, .f32⟩
  | .hbm, ⟨6, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S3x2048, .f32⟩
  | .local _ .vmem, ⟨3, _⟩ => ⟨S3x2048, .f32⟩
  | .local _ .vmem, ⟨4, _⟩ => ⟨S2048, .f32⟩
  | .local _ .vmem, ⟨5, _⟩ => ⟨S2048, .f32⟩
  | .local _ .vmem, ⟨6, _⟩ => ⟨S2048, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 : BitVec 32 :=
  let c0_i32_2 : BitVec 32 := 0#32
  let c512_i32 : BitVec 32 := 512#32
  let v6 : BitVec 32 := Scalar.muli c0_i32_2 c512_i32
  v6
def k0_off1 (c0_i32_2 : BitVec 32) : Fin 2 → Nat :=
  let c512_i32 : BitVec 32 := 512#32
  let v6 : BitVec 32 := Scalar.muli c0_i32_2 c512_i32
  let v7 : BitVec 32 := v6
  let v8 : Index := Scalar.indexCast v7
  let c0_3 : Index := 0#32
  ![v8.toNat, 0]
def k0_mult2 : BitVec 32 :=
  let c1_i32 : BitVec 32 := 1#32
  let c512_i32_7 : BitVec 32 := 512#32
  let v37 : BitVec 32 := Scalar.muli c1_i32 c512_i32_7
  v37
def k0_mult3 : BitVec 32 :=
  let c2_i32 : BitVec 32 := 2#32
  let c512_i32_12 : BitVec 32 := 512#32
  let v68 : BitVec 32 := Scalar.muli c2_i32 c512_i32_12
  v68
def k0_mult4 : BitVec 32 :=
  let c3_i32 : BitVec 32 := 3#32
  let c512_i32_17 : BitVec 32 := 512#32
  let v99 : BitVec 32 := Scalar.muli c3_i32 c512_i32_17
  v99
def k0_cond2 (i : grid0.Coords) : BitVec 1 :=
  let arg1 : BitVec 32 := BitVec.ofNat 32 (i 1).val
  let c7_i32 : BitVec 32 := 7#32
  let v135 : BitVec 1 := Scalar.cmpi .eq arg1 c7_i32
  let v136 : BitVec 32 := Scalar.extui v135
  let c0_i32_24 : BitVec 32 := 0#32
  let v137 : BitVec 1 := Scalar.cmpi .ne v136 c0_i32_24
  v137

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x4096x3_S16384x3 : S4x4096x3.ShapeCasts S16384x3
  transposes_S16384x3_S3x16384_1_0 : S16384x3.Transposes [1, 0] S3x16384
  inb_S2048_S2048_0 : ∀ a, (![0] : Fin 1 → Nat) a + S2048.size a ≤ S2048.size a
  h_S2048 : 0 < S2048.numel
  shapeCasts_S2048_S2048 : S2048.ShapeCasts S2048
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  h_S512x3 : 0 < S512x3.numel
  shapeCasts_S512x3_S512x3 : S512x3.ShapeCasts S512x3
  reduces_S512x3_S512 : S512x3.Reduces [1] S512
  shapeCasts_S512_S512x1 : S512.ShapeCasts S512x1
  slices_S512x3_o0_0_S512x1 : S512x3.Slices ![0, 0] S512x1
  slices_S3x2048_o0_0_S1x2048 : S3x2048.Slices ![0, 0] S1x2048
  broadcasts_S512x1_S512x2048 : S512x1.Broadcasts S512x2048
  broadcasts_S1x2048_S512x2048 : S1x2048.Broadcasts S512x2048
  slices_S512x3_o0_1_S512x1 : S512x3.Slices ![0, 1] S512x1
  slices_S3x2048_o1_0_S1x2048 : S3x2048.Slices ![1, 0] S1x2048
  slices_S512x3_o0_2_S512x1 : S512x3.Slices ![0, 2] S512x1
  slices_S3x2048_o2_0_S1x2048 : S3x2048.Slices ![2, 0] S1x2048
  reduces_S512x2048_S2048 : S512x2048.Reduces [0] S2048
  reduces_S3x2048_S2048 : S3x2048.Reduces [0] S2048
  reducesTo_S16384_S_d0 : S16384.ReducesTo [0] S_
  h_S_ : 0 < S_.numel
  hrank0 : 0 < grid0.rank
  k0_mult1_dvd : 512 ∣ k0_mult1.toNat
  k0_off1_inb : ∀ (r : Fin 4), ∀ a, (k0_off1 (BitVec.ofNat 32 r.val)) a + S512x3.size a ≤ S2048x3.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x16384.size a
  hwx0_1 : ∀ i : grid0.Coords, EltTy.bits .f32 = 32 ∨ (Rect.block (s := S3x16384) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)

variable [Facts₀]

abbrev win0_0 : Pipeline.Window sig grid0 :=
  Pipeline.Window.ofSpec (Memref.whole main_v0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S16384x3 : Shape := ⟨2, ![16384, 3]⟩
abbrev S_ : Shape := ⟨0, ![]⟩
abbrev S4x4096 : Shape := ⟨2, ![4, 4096]⟩
abbrev S16384 : Shape := ⟨1, ![16384]⟩
abbrev S4x4096x16384 : Shape := ⟨3, ![4, 4096, 16384]⟩
abbrev S4x4096x1 : Shape := ⟨3, ![4, 4096, 1]⟩
abbrev S1x1x16384 : Shape := ⟨3, ![1, 1, 16384]⟩
abbrev S4x16384 : Shape := ⟨2, ![4, 16384]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S16384x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S4x4096x16384, .f32⟩
  | .hbm, ⟨9, _⟩ => ⟨S4x4096x1, .f32⟩
  | .hbm, ⟨10, _⟩ => ⟨S1x1x16384, .f32⟩
  | .hbm, ⟨11, _⟩ => ⟨S4x4096x16384, .f32⟩
  | .hbm, ⟨12, _⟩ => ⟨S4x4096x16384, .f32⟩
  | .hbm, ⟨13, _⟩ => ⟨S4x4096x16384, .f32⟩
  | .hbm, ⟨14, _⟩ => ⟨S_, .f32⟩
  | .hbm, ⟨15, _⟩ => ⟨S4x4096x16384, .f32⟩
  | .hbm, ⟨16, _⟩ => ⟨S4x4096x16384, .f32⟩
  | .hbm, ⟨17, _⟩ => ⟨S4x4096x16384, .f32⟩
  | .hbm, ⟨18, _⟩ => ⟨S_, .f32⟩
  | .hbm, ⟨19, _⟩ => ⟨S4x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  reducesTo_S16384x3_S16384_d1 : S16384x3.ReducesTo [1] S16384
  bcast_S4x4096_S4x4096x1_0_1 : S4x4096.BroadcastsInDim S4x4096x1 (![0, 1] : Fin 2 → Fin S4x4096x1.rank)
  bcast_S16384_S1x1x16384_2 : S16384.BroadcastsInDim S1x1x16384 (![2] : Fin 1 → Fin S1x1x16384.rank)
  bcast_S4x4096x1_S4x4096x16384_0_1_2 : S4x4096x1.BroadcastsInDim S4x4096x16384 (![0, 1, 2] : Fin 3 → Fin S4x4096x16384.rank)
  bcast_S1x1x16384_S4x4096x16384_0_1_2 : S1x1x16384.BroadcastsInDim S4x4096x16384 (![0, 1, 2] : Fin 3 → Fin S4x4096x16384.rank)
  bcast_S_S4x4096x16384 : S_.BroadcastsInDim S4x4096x16384 (![] : Fin 0 → Fin S4x4096x16384.rank)
  reducesTo_S4x4096x16384_S4x16384_d1 : S4x4096x16384.ReducesTo [1] S4x16384
  reducesTo_S4x16384_S16384_d0 : S4x16384.ReducesTo [0] S16384
  reducesTo_S16384_S_d0 : S16384.ReducesTo [0] S_
  dot_S4x4096x3_S16384x3_S4x4096x16384_2_1_01_0_n_n_wf : DotDims.WF S4x4096x3 S16384x3 S4x4096x16384 [2] [1] [0, 1] [0] [] []

variable [Facts₀]

def dot_S4x4096x3_S16384x3_S4x4096x16384_2_1_01_0_n_n : DotDims S4x4096x3 S16384x3 S4x4096x16384 where
  lhsContracting := [2]
  rhsContracting := [1]
  lhsNonContracting := [0, 1]
  rhsNonContracting := [0]
  lhsBatch := []
  rhsBatch := []
  wf := dot_S4x4096x3_S16384x3_S4x4096x16384_2_1_01_0_n_n_wf

class Facts : Prop extends Facts₀ where

variable [Facts]
-- ==== Proof.KernelBody.lean ====
/-
  What one grid point of the kernel leaves behind, as values.

  At a grid point the body holds a block of 2048 surface points (rows of `[2048, 3]`), a block of 2048 targets (columns of
  `[3, 2048]`) and the running minimum `acc` (one entry per target of the block). It cuts the surface block into four runs
  of 512 rows, forms for each run the `[512, 2048]` table `|a|² + Σ_k (−2·a_k)·b_k`, takes the column minima, folds the four
  into one vector starting from `+∞`, and stores `min acc (that vector)` back into the running minimum (`step`). At the
  first point of a target block the running minimum is first reset to `+∞` (`fresh`); at the last point the output block is
  the new running minimum plus `|b|²` (`emit`).
-/
import proofs.«156038_j69054484185810_2_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem Idealize.ShloMosaic.Tactic
open Cert.KernelIdeal Cert.KernelIdeal.Gen

variable {F : FTy → Type} [FloatOps F]

theorem zero1 : (![0] : Fin 1 → Nat) = fun _ => 0 := funext fun a => by fin_cases a; rfl
theorem zero2 : (![0, 0] : Fin 2 → Nat) = fun _ => 0 := funext fun a => by fin_cases a <;> rfl

/-- Rows 0–511 of the surface block. -/
abbrev rows0 (x0 : Vec F S2048x3 .f32) : Vec F S512x3 .f32 :=
  View.ld x0 (Rect.unit (s := S2048x3) ![0, 0] S512x3.size (by decide))
/-- Rows 512–1023 of the surface block. -/
abbrev rows1 (x0 : Vec F S2048x3 .f32) : Vec F S512x3 .f32 :=
  View.ld x0 (Rect.unit (s := S2048x3) ![512, 0] S512x3.size (by decide))
/-- Rows 1024–1535 of the surface block. -/
abbrev rows2 (x0 : Vec F S2048x3 .f32) : Vec F S512x3 .f32 :=
  View.ld x0 (Rect.unit (s := S2048x3) ![1024, 0] S512x3.size (by decide))
/-- Rows 1536–2047 of the surface block. -/
abbrev rows3 (x0 : Vec F S2048x3 .f32) : Vec F S512x3 .f32 :=
  View.ld x0 (Rect.unit (s := S2048x3) ![1536, 0] S512x3.size (by decide))

/-- The running minimum after a grid point, from the point's surface block `x0`, target block `x1` and the running minimum
    `acc` before it: the body's one store into the scratch, over its loads. -/
def step (x0 : Vec F S2048x3 .f32) (x1 : Vec F S3x2048 .f32) (acc : Vec F S2048 .f32) : FVec F S2048 .f32 :=
  k0_pay1 (k0_pay4 x1)
    (k0_pay7 (k0_pay4 x1) (k0_pay5 x1 (rows0 x0)) (k0_pay6 (rows1 x0)) (FloatOps.ofBits .f32 0xC0000000#32))
    (k0_pay10 (k0_pay4 x1) (rows2 x0)) (k0_pay11 (rows2 x0)) (k0_pay12 (k0_pay4 x1)) (rows3 x0) acc

/-- The running minimum as the first point of a target block resets it: `+∞` everywhere. -/
abbrev fresh : FVec F S2048 .f32 := k0_pay3

/-- The output block at the last point of a target block: the running minimum plus the targets' squared norms. -/
abbrev emit (x1 : Vec F S3x2048 .f32) (acc : Vec F S2048 .f32) : FVec F S2048 .f32 := k0_pay2 (k0_pay4 x1) acc

/-- A middle point leaves `step` of what it found in the running minimum. -/
theorem scratch_B (c : Dev nD) (i : grid0.Coords) (arg2 : Memref sig .tc .vmem S2048x3 .f32) (harg2 : arg2.IsWhole) (arg3 : Memref sig .tc .vmem S3x2048 .f32) (harg3 : arg3.IsWhole) (arg4 : Memref sig .tc .vmem S2048 .f32) (harg4 : arg4.IsWhole) (arg5 : Memref sig .tc .vmem S2048 .f32) (harg5 : arg5.IsWhole) (hc0 : ¬cond0_0 i) (hc1 : ¬cond0_1 i)
    (x0 : Vec F S2048x3 .f32) (x1 : Vec F S3x2048 .f32) (xs0 : Vec F S2048 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S2048) zero1]
  simp only [View.readAt_eq_ld, harg2.read_unread, harg3.read_unread, harg5.read_unread,
    View.ld_unit_zero (S := S3x2048) zero2, View.ld_unit_zero (S := S2048) zero1]
  rfl

/-- The last point of a target block leaves the same in the running minimum. -/
theorem scratch_C (c : Dev nD) (i : grid0.Coords) (arg2 : Memref sig .tc .vmem S2048x3 .f32) (harg2 : arg2.IsWhole) (arg3 : Memref sig .tc .vmem S3x2048 .f32) (harg3 : arg3.IsWhole) (arg4 : Memref sig .tc .vmem S2048 .f32) (harg4 : arg4.IsWhole) (arg5 : Memref sig .tc .vmem S2048 .f32) (harg5 : arg5.IsWhole) (hc0 : ¬cond0_0 i) (hc1 : cond0_1 i)
    (x0 : Vec F S2048x3 .f32) (x1 : Vec F S3x2048 .f32) (xs0 : Vec F S2048 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S2048) zero1]
  simp only [View.readAt_eq_ld, harg2.read_unread, harg3.read_unread, harg5.read_unread,
    View.ld_unit_zero (S := S3x2048) zero2, View.ld_unit_zero (S := S2048) zero1]
  rfl

/-- and writes `emit` of it into the output block. -/
theorem out_C (c : Dev nD) (i : grid0.Coords) (arg2 : Memref sig .tc .vmem S2048x3 .f32) (harg2 : arg2.IsWhole) (arg3 : Memref sig .tc .vmem S3x2048 .f32) (harg3 : arg3.IsWhole) (arg4 : Memref sig .tc .vmem S2048 .f32) (harg4 : arg4.IsWhole) (arg5 : Memref sig .tc .vmem S2048 .f32) (harg5 : arg5.IsWhole) (hc0 : ¬cond0_0 i) (hc1 : cond0_1 i)
    (x0 : Vec F S2048x3 .f32) (x1 : Vec F S3x2048 .f32) (xs0 : Vec F S2048 .f32) :
    out0_C_2 c i arg2 harg2 arg3 harg3 arg4 harg4 arg5 harg5 hc0 hc1 x0 x1 xs0 = emit x1 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S2048) zero1, View.readCov_unit_zero (S := S2048) _ zero1]
  simp only [View.readAt_eq_ld, harg2.read_unread, harg3.read_unread, harg5.read_unread,
    View.ld_unit_zero (S := S3x2048) zero2, View.ld_unit_zero (S := S2048) zero1]
  rfl

/-- The first point of a target block resets the running minimum and leaves `step` of the reset value. -/
theorem scratch_A (c : Dev nD) (i : grid0.Coords) (arg2 : Memref sig .tc .vmem S2048x3 .f32) (harg2 : arg2.IsWhole) (arg3 : Memref sig .tc .vmem S3x2048 .f32) (harg3 : arg3.IsWhole) (arg4 : Memref sig .tc .vmem S2048 .f32) (harg4 : arg4.IsWhole) (arg5 : Memref sig .tc .vmem S2048 .f32) (harg5 : arg5.IsWhole) (hc0 : cond0_0 i) (hc1 : ¬cond0_1 i)
    (x0 : Vec F S2048x3 .f32) (x1 : Vec F S3x2048 .f32) :
    sout0_A_0 c i arg2 harg2 arg3 harg3 arg4 harg4 arg5 harg5 hc0 hc1 x0 x1 = step x0 x1 fresh := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2048) zero1, View.readCov_unit_zero (S := S2048) _ zero1]
  simp only [View.readAt_eq_ld, harg2.read_unread, harg3.read_unread,
    View.ld_unit_zero (S := S3x2048) zero2]
  rfl

end Cert.KernelIdeal.Body

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Consts.lean ====
/-
  The float constants the two programs spell, as the extended reals their words denote at the exact values:
  `-2.0` (the factor the kernel folds into the surface coordinates), `2.0` (the factor the reference applies to the inner
  product), `+0.0` and `+∞` (where the sums and the minima start).
-/
import proofs.«156038_j69054484185810_2_alg».proof.Proof.LibReal

noncomputable section

namespace Cert.Nearest

open Idealize.ShloMosaic

/-- The word of `-2.0` denotes the real number `-2`. -/
theorem ofBits_neg_two : Ideal.ofBits .f32 0xC0000000#32 = ((-2 : ℝ) : EReal) := by
  simp [Ideal.ofBits, Ideal.ieee, -EReal.coe_mul]; norm_num

/-- The word of `2.0` denotes the real number `2`. -/
theorem ofBits_two : Ideal.ofBits .f32 0x40000000#32 = ((2 : ℝ) : EReal) := by
  simp [Ideal.ofBits, Ideal.ieee, -EReal.coe_mul]; norm_num

/-- The word of `+0.0` denotes `0`. -/
theorem ofBits_zero : Ideal.ofBits .f32 0x00000000#32 = 0 := Ideal.ofBits_zero_f32

/-- The word of `+∞` denotes the top element. -/
theorem ofBits_top : Ideal.ofBits .f32 0x7F800000#32 = ⊤ := Cert.LibReal.ofBits_inf

end Cert.Nearest

end
-- ==== Proof.LibLowerBounds.lean ====
/-
  Minima over the extended reals, handled through their lower bounds.

  A minimum taken in pieces — a fold of `min` from `+∞`, a kernel's reduction by `minimumf` along one axis, a host
  `reduce` with a `minimum` body — is determined by its lower bounds: `z` is below it exactly when `z` is below every
  element that went into it. Two extended reals with the same lower bounds are equal, so nested or blocked minima over the
  same elements are compared without ever fixing an order. A value with the lower bounds of a nonempty finite family is
  attained, so adding a fixed term to it adds the term to every member's bound (`min_n (x_n) + b = min_n (x_n + b)`), with no
  finiteness needed of `b`.
-/
import Idealize.ShloMosaic.PureOps.Ideal.Laws
import Idealize.ShloMosaic.PureOps.Reduce

noncomputable section

namespace Cert.LibLowerBounds

open Idealize.ShloMosaic

/-- The f32 word of plus infinity denotes the top element of the extended reals. -/
theorem ofBits_pos_inf : Ideal.ofBits .f32 0x7F800000#32 = ⊤ := by simp [Ideal.ofBits, Ideal.ieee]

/-- The lower bounds of a fold of `min` over all of `Fin n`: those of the initial value that are lower bounds of every
    member. -/
theorem le_fold_min_univ {n : ℕ} (init : EReal) (f : Fin n → EReal) (z : EReal) :
    z ≤ (Finset.univ : Finset (Fin n)).fold min init f ↔ z ≤ init ∧ ∀ k, z ≤ f k := by
  rw [Finset.le_fold_min]
  exact ⟨fun h => ⟨h.1, fun k => h.2 k (Finset.mem_univ k)⟩, fun h => ⟨h.1, fun k _ => h.2 k⟩⟩

/-- Two extended reals with the same lower bounds are equal. -/
theorem eq_of_same_lower_bounds {x y : EReal} (h : ∀ z, z ≤ x ↔ z ≤ y) : x = y :=
  le_antisymm ((h x).mp le_rfl) ((h y).mpr le_rfl)

/-- A value whose lower bounds are those of a nonempty finite family is the least member, so its sum with `b` has the lower
    bounds of the family shifted by `b`. No finiteness of `b` is needed: addition is monotone on the extended reals. -/
theorem le_add_iff_of_glb {ι : Type} [Finite ι] [Nonempty ι] (d : ι → EReal) (acc b : EReal)
    (h : ∀ z, z ≤ acc ↔ ∀ i, z ≤ d i) (z : EReal) : z ≤ acc + b ↔ ∀ i, z ≤ d i + b := by
  have hle : ∀ i, acc ≤ d i := (h acc).mp le_rfl
  obtain ⟨i0, hi0⟩ : ∃ i0, ∀ i, d i0 ≤ d i := Finite.exists_min d
  have hacc : acc = d i0 := le_antisymm (hle i0) ((h _).mpr hi0)
  constructor
  · intro hz i; exact hz.trans (add_le_add (hle i) le_rfl)
  · intro hz; rw [hacc]; exact hz i0

/-- A kernel's reduction by `minimumf` along one axis from the word of `+∞`, at the exact values: its lower bounds at a
    result index are the lower bounds of every source element along the reduced axis. -/
theorem le_multiReduction_min {s t : Shape} {a : Fin s.rank} (src : FVec Ideal s .f32) (h : s.Reduces [a] t)
    (hφ : FKind.Formats .f32) (hacc : (0x7F800000#32 : BitVec 32) = FKind.minimumf.neutral .f32 hφ) (j : t.Idx) (z : EReal) :
    z ≤ multiReduction (F := Ideal) .minimumf [a] t src 0x7F800000#32 h hφ hacc j ↔ ∀ k : Fin (s.size a), z ≤ src (h.lift j k) := by
  have e : multiReduction (F := Ideal) .minimumf [a] t src 0x7F800000#32 h hφ hacc j
      = (Finset.univ : Finset (Fin (s.size a))).fold min (Ideal.ofBits .f32 0x7F800000#32) (fun k => src (h.lift j k)) := by
    rw [multiReduction_minimumf_eq_fold]
    exact h.fold_filter_drop_single _ _ src j
  rw [e, ofBits_pos_inf, le_fold_min_univ]
  exact ⟨fun h => h.2, fun h => ⟨le_top, h⟩⟩

/-- A host `reduce` with a `minimum` body along one axis from an initial value that is `+∞`, at the exact values: its
    lower bounds at a result index are the lower bounds of every operand element along the reduced axis. -/
theorem le_hostReduce_min {s t u : Shape} {a : Fin s.rank} (x : s.Idx → Ideal .f32) (init : u.Idx → Ideal .f32)
    (h' : s.ReducesTo [a] t) (h : s.Reduces [a] t) (hu : 0 < u.numel) (hinit : init (Shape.Idx.first hu) = ⊤)
    (j : t.Idx) (z : EReal) :
    z ≤ Host.reduce (FloatOps.minimumf (F := Ideal) (φ := .f32)) x init h' hu j ↔ ∀ k : Fin (s.size a), z ≤ x (h.lift j k) := by
  rw [Host.reduce_eq_fold_single FloatOps.minimumf x init h' h hu j]
  have e : (Finset.univ : Finset (Fin (s.size a))).fold (FloatOps.minimumf (F := Ideal) (φ := .f32))
        (init (Shape.Idx.first hu)) (x ∘ h.lift j)
      = (Finset.univ : Finset (Fin (s.size a))).fold min (init (Shape.Idx.first hu)) (fun k => x (h.lift j k)) := rfl
  rw [e, hinit, le_fold_min_univ]
  exact ⟨fun h => h.2, fun h => ⟨le_top, h⟩⟩

end Cert.LibLowerBounds

end
-- ==== Proof.Lattice.lean ====
/-
  The squared distance of two points of three-space, in the two orders the programs compute it, and the bookkeeping of the
  2048 rows of a block as four runs of 512.

  For real coordinates, `|a|² + Σ (−2·a_k)·b_k + |b|²` and `(|a|² + |b|²) − 2·Σ a_k·b_k` are the same real number. (The facts
  about minima through their lower bounds that the comparison of the two programs rests on are restated here by name.)
-/
import proofs.«156038_j69054484185810_2_alg».proof.Proof.LibLowerBounds
import Mathlib.Data.EReal.Operations
import Mathlib.Data.Fintype.Lattice
import Mathlib.Order.Fin.Basic
import Mathlib.Tactic.Ring
import Mathlib.Tactic.NormNum
import Mathlib.Algebra.BigOperators.Fin

noncomputable section

namespace Cert.Nearest

export Cert.LibLowerBounds (le_fold_min_univ eq_of_same_lower_bounds le_add_iff_of_glb)

/-- The squared distance of two real points of the space, expanded in the two orders the programs use: the norms first and
    the doubled inner product subtracted, or the cross terms `(−2·a_k)·b_k` added to `|a|²` one by one and `|b|²` last. -/
theorem sqdist_two_ways (a0 a1 a2 b0 b1 b2 : ℝ) :
    (((((a0 : EReal) * a0 + (a1 : EReal) * a1 + (a2 : EReal) * a2) + ((a0 : EReal) * ((-2 : ℝ) : EReal)) * b0)
        + ((a1 : EReal) * ((-2 : ℝ) : EReal)) * b1) + ((a2 : EReal) * ((-2 : ℝ) : EReal)) * b2)
        + ((b0 : EReal) * b0 + (b1 : EReal) * b1 + (b2 : EReal) * b2)
      = ((0 + ((a0 : EReal) * a0 + (a1 : EReal) * a1 + (a2 : EReal) * a2))
          + (0 + ((b0 : EReal) * b0 + (b1 : EReal) * b1 + (b2 : EReal) * b2)))
        - ((2 : ℝ) : EReal) * ((a0 : EReal) * b0 + (a1 : EReal) * b1 + (a2 : EReal) * b2) := by
  have e : (((((a0 * a0 + a1 * a1 + a2 * a2) + (a0 * (-2)) * b0) + (a1 * (-2)) * b1) + (a2 * (-2)) * b2)
        + (b0 * b0 + b1 * b1 + b2 * b2) : ℝ)
      = ((0 + (a0 * a0 + a1 * a1 + a2 * a2)) + (0 + (b0 * b0 + b1 * b1 + b2 * b2)))
        - 2 * (a0 * b0 + a1 * b1 + a2 * b2) := by ring
  exact_mod_cast congrArg (fun r : ℝ => (r : EReal)) e

/-- The kernel's table entry for a surface point `a` and a target `b` of the space: `|a|² + Σ_k (a_k·c)·b_k`, the cross
    terms added one coordinate at a time (`c` is the factor the kernel folds into the surface side, `-2`). -/
def cross (c : EReal) (a b : Fin 3 → EReal) : EReal :=
  (((∑ k : Fin 3, a k * a k) + (a 0 * c) * b 0) + (a 1 * c) * b 1) + (a 2 * c) * b 2

/-- For real points, the kernel's table entry plus the target's squared norm is the reference's
    `(|a|² + |b|²) − 2·⟨a, b⟩`, its two norms each started from `0`. -/
theorem cross_add_sqnorm (a b : Fin 3 → ℝ) :
    cross ((-2 : ℝ) : EReal) (fun k => (a k : EReal)) (fun k => (b k : EReal)) + ∑ k : Fin 3, (b k : EReal) * (b k : EReal)
      = ((0 + ∑ k : Fin 3, (a k : EReal) * (a k : EReal)) + (0 + ∑ k : Fin 3, (b k : EReal) * (b k : EReal)))
        - ((2 : ℝ) : EReal) * ∑ k : Fin 3, (a k : EReal) * (b k : EReal) := by
  unfold cross
  simp only [Fin.sum_univ_three]
  exact sqdist_two_ways (a 0) (a 1) (a 2) (b 0) (b 1) (b 2)

/-- A property of the 2048 rows of a block holds of all of them when it holds on each of the four runs of 512 rows. -/
theorem forall_rows_of_runs (P : Fin 2048 → Prop)
    (h0 : ∀ r : Fin 512, P ⟨0 + r.val, by omega⟩) (h1 : ∀ r : Fin 512, P ⟨512 + r.val, by omega⟩)
    (h2 : ∀ r : Fin 512, P ⟨1024 + r.val, by omega⟩) (h3 : ∀ r : Fin 512, P ⟨1536 + r.val, by omega⟩) (r : Fin 2048) : P r := by
  have hr := r.isLt
  by_cases c1 : r.val < 512
  · have := h0 ⟨r.val, c1⟩
    rwa [show (⟨0 + (⟨r.val, c1⟩ : Fin 512).val, by omega⟩ : Fin 2048) = r from Fin.ext (by simp)] at this
  · by_cases c2 : r.val < 1024
    · have := h1 ⟨r.val - 512, by omega⟩
      rwa [show (⟨512 + (⟨r.val - 512, by omega⟩ : Fin 512).val, by omega⟩ : Fin 2048) = r from Fin.ext (by simp; omega)] at this
    · by_cases c3 : r.val < 1536
      · have := h2 ⟨r.val - 1024, by omega⟩
        rwa [show (⟨1024 + (⟨r.val - 1024, by omega⟩ : Fin 512).val, by omega⟩ : Fin 2048) = r from Fin.ext (by simp; omega)] at this
      · have := h3 ⟨r.val - 1536, by omega⟩
        rwa [show (⟨1536 + (⟨r.val - 1536, by omega⟩ : Fin 512).val, by omega⟩ : Fin 2048) = r from Fin.ext (by simp; omega)] at this

end Cert.Nearest

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KernelStep.lean ====
/-
  One grid point of the kernel, read entry by entry at the exact values.

  For a run `ch` of 512 surface points and the target block `v4`, the `[512, 2048]` table the body forms holds at `(r, q)`
  the number `|a_r|² + Σ_k (a_{r,k}·c)·b_{k,q}` (`table_apply`). A column minimum from `+∞` has as lower bounds the lower bounds
  of every entry of the column (`le_colMin`). So the running minimum after the point has, at target `q`, the lower bounds of
  the running minimum before it that are lower bounds of all 2048 table entries of the point's surface block (`le_step`).
  The reset value is `+∞` (`fresh_apply`), and the output block adds the targets' squared norms (`emit_apply`).
-/
import proofs.«156038_j69054484185810_2_alg».proof.Proof.KernelBody
import proofs.«156038_j69054484185810_2_alg».proof.Proof.Consts
import proofs.«156038_j69054484185810_2_alg».proof.Proof.Lattice
import proofs.«156038_j69054484185810_2_alg».proof.Proof.LibColumns
import Idealize.ShloMosaic.Lib.ValueIdx
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx
open Cert.KernelIdeal Cert.KernelIdeal.Gen Cert.Nearest

/-- The factor the kernel folds into the surface coordinates: the word of `-2.0`. -/
abbrev negTwo : EReal := Ideal.ofBits .f32 0xC0000000#32

/-- The table of one run of 512 surface points against the target block: `|a|²` broadcast along the rows plus the three
    products of a column of `c·a` with a row of `b`, in the order the body adds them. -/
def table (ch : FVec Ideal S512x3 .f32) (cst : Ideal .f32) (v4 : FVec Ideal S3x2048 .f32) : FVec Ideal S512x2048 .f32 :=
  addf (addf (addf
    (broadcastTo S512x2048 (shapeCast S512x1 (multiReduction (F := Ideal) .add [1] S512 (mulf ch ch) 0x00000000#32 reduces_S512x3_S512 (.inl rfl) rfl) shapeCasts_S512_S512x1) broadcasts_S512x1_S512x2048)
    (mulf (broadcastTo S512x2048 (extractStridedSlice S512x1 ![0, 0] (mulf ch (broadcast S512x3 cst)) slices_S512x3_o0_0_S512x1) broadcasts_S512x1_S512x2048)
      (broadcastTo S512x2048 (extractStridedSlice S1x2048 ![0, 0] v4 slices_S3x2048_o0_0_S1x2048) broadcasts_S1x2048_S512x2048)))
    (mulf (broadcastTo S512x2048 (extractStridedSlice S512x1 ![0, 1] (mulf ch (broadcast S512x3 cst)) slices_S512x3_o0_1_S512x1) broadcasts_S512x1_S512x2048)
      (broadcastTo S512x2048 (extractStridedSlice S1x2048 ![1, 0] v4 slices_S3x2048_o1_0_S1x2048) broadcasts_S1x2048_S512x2048)))
    (mulf (broadcastTo S512x2048 (extractStridedSlice S512x1 ![0, 2] (mulf ch (broadcast S512x3 cst)) slices_S512x3_o0_2_S512x1) broadcasts_S512x1_S512x2048)
      (broadcastTo S512x2048 (extractStridedSlice S1x2048 ![2, 0] v4 slices_S3x2048_o2_0_S1x2048) broadcasts_S1x2048_S512x2048))

/-- The table at `(r, q)`: surface point `r` of the run against target `q` of the block. -/
theorem table_apply (ch : FVec Ideal S512x3 .f32) (cst : Ideal .f32) (v4 : FVec Ideal S3x2048 .f32) (r : Fin 512) (q : Fin 2048) :
    table ch cst v4 (ix2 r q) = cross cst (fun k => ch (ix2 r k)) (fun k => v4 (ix2 k q)) := by
  have e1 : broadcastTo S512x2048 (shapeCast S512x1 (multiReduction (F := Ideal) .add [1] S512 (mulf ch ch) 0x00000000#32 reduces_S512x3_S512 (.inl rfl) rfl) shapeCasts_S512_S512x1) broadcasts_S512x1_S512x2048 (ix2 r q)
      = ∑ k : Fin 3, ch (ix2 r k) * ch (ix2 r k) :=
    (Cert.LibColumns.broadcastTo_a1_ab_apply _ broadcasts_S512x1_S512x2048 r q).trans
      ((Cert.LibColumns.shapeCast_a_a1_apply _ shapeCasts_S512_S512x1 r 0).trans
        (Cert.LibColumns.multiReduction_add_rows_apply (mulf ch ch) _ reduces_S512x3_S512 _ _ r))
  have eP0 : broadcastTo S512x2048 (extractStridedSlice S512x1 ![0, 0] (mulf ch (broadcast S512x3 cst)) slices_S512x3_o0_0_S512x1) broadcasts_S512x1_S512x2048 (ix2 r q)
      = ch (ix2 r (0 : Fin 3)) * cst :=
    (Cert.LibColumns.broadcastTo_a1_ab_apply _ broadcasts_S512x1_S512x2048 r q).trans
      (slice2_axis1_apply 0 _ slices_S512x3_o0_0_S512x1 r (0 : Fin 1) (0 : Fin 3) rfl)
  have eP1 : broadcastTo S512x2048 (extractStridedSlice S512x1 ![0, 1] (mulf ch (broadcast S512x3 cst)) slices_S512x3_o0_1_S512x1) broadcasts_S512x1_S512x2048 (ix2 r q)
      = ch (ix2 r (1 : Fin 3)) * cst :=
    (Cert.LibColumns.broadcastTo_a1_ab_apply _ broadcasts_S512x1_S512x2048 r q).trans
      (slice2_axis1_apply 1 _ slices_S512x3_o0_1_S512x1 r (0 : Fin 1) (1 : Fin 3) rfl)
  have eP2 : broadcastTo S512x2048 (extractStridedSlice S512x1 ![0, 2] (mulf ch (broadcast S512x3 cst)) slices_S512x3_o0_2_S512x1) broadcasts_S512x1_S512x2048 (ix2 r q)
      = ch (ix2 r (2 : Fin 3)) * cst :=
    (Cert.LibColumns.broadcastTo_a1_ab_apply _ broadcasts_S512x1_S512x2048 r q).trans
      (slice2_axis1_apply 2 _ slices_S512x3_o0_2_S512x1 r (0 : Fin 1) (2 : Fin 3) rfl)
  have eT0 : broadcastTo S512x2048 (extractStridedSlice S1x2048 ![0, 0] v4 slices_S3x2048_o0_0_S1x2048) broadcasts_S1x2048_S512x2048 (ix2 r q)
      = v4 (ix2 (0 : Fin 3) q) :=
    (broadcastTo_1b_ab_apply _ broadcasts_S1x2048_S512x2048 r q).trans
      (slice2_axis0_apply 0 v4 slices_S3x2048_o0_0_S1x2048 (0 : Fin 1) q (0 : Fin 3) rfl)
  have eT1 : broadcastTo S512x2048 (extractStridedSlice S1x2048 ![1, 0] v4 slices_S3x2048_o1_0_S1x2048) broadcasts_S1x2048_S512x2048 (ix2 r q)
      = v4 (ix2 (1 : Fin 3) q) :=
    (broadcastTo_1b_ab_apply _ broadcasts_S1x2048_S512x2048 r q).trans
      (slice2_axis0_apply 1 v4 slices_S3x2048_o1_0_S1x2048 (0 : Fin 1) q (1 : Fin 3) rfl)
  have eT2 : broadcastTo S512x2048 (extractStridedSlice S1x2048 ![2, 0] v4 slices_S3x2048_o2_0_S1x2048) broadcasts_S1x2048_S512x2048 (ix2 r q)
      = v4 (ix2 (2 : Fin 3) q) :=
    (broadcastTo_1b_ab_apply _ broadcasts_S1x2048_S512x2048 r q).trans
      (slice2_axis0_apply 2 v4 slices_S3x2048_o2_0_S1x2048 (0 : Fin 1) q (2 : Fin 3) rfl)
  exact congrArg₂ (· + ·) (congrArg₂ (· + ·) (congrArg₂ (· + ·) e1 (congrArg₂ (· * ·) eP0 eT0)) (congrArg₂ (· * ·) eP1 eT1))
    (congrArg₂ (· * ·) eP2 eT2)

/-- The column minima of a `[512, 2048]` table, started from `+∞`. -/
def colMin (T : FVec Ideal S512x2048 .f32) : FVec Ideal S2048 .f32 :=
  multiReduction (F := Ideal) .minimumf [0] S2048 T 0x7F800000#32 reduces_S512x2048_S2048 (.inl rfl) rfl

/-- The lower bounds of a column minimum are the lower bounds of every entry of the column. -/
theorem le_colMin (T : FVec Ideal S512x2048 .f32) (q : Fin 2048) (z : EReal) :
    z ≤ colMin T (ix1 q) ↔ ∀ r : Fin 512, z ≤ T (ix2 r q) := by
  unfold colMin
  refine (Cert.LibLowerBounds.le_multiReduction_min T reduces_S512x2048_S2048 _ _ (ix1 q) z).trans ?_
  show (∀ r : Fin 512, z ≤ T (reduces_S512x2048_S2048.lift (ix1 q) r)) ↔ _
  refine forall_congr' fun r => ?_
  rw [show reduces_S512x2048_S2048.lift (ix1 q) r = ix2 r q from funext fun ax => Fin.ext (by
    match ax with
    | ⟨0, _⟩ => rfl
    | ⟨1, _⟩ => rfl)]

/-- A run of 512 rows of the surface block, cut at row offset `o`, reads the block `o` rows further down. -/
theorem run_apply (x0 : Vec Ideal S2048x3 .f32) (o : Nat) (ho : o + 512 ≤ 2048)
    (inb : ∀ a, (![o, 0] : Fin 2 → Nat) a + S512x3.size a ≤ S2048x3.size a) (r : Fin 512) (k : Fin 3) :
    View.ld (Val := Elt Ideal) (e' := .f32) x0 (Rect.unit (s := S2048x3) ![o, 0] S512x3.size inb) (ix2 r k)
      = x0 (ix2 (⟨o + r.val, by omega⟩ : Fin 2048) k) := by
  show x0 _ = x0 _
  refine congrArg x0 (funext fun a => Fin.ext ?_)
  match a with
  | ⟨0, _⟩ => show o + 1 * r.val = o + r.val; omega
  | ⟨1, _⟩ => show 0 + 1 * k.val = k.val; omega

/-- The body's store into the running minimum, with the four runs' tables named: the minimum of the old value and the
    four column minima folded from `+∞`. -/
theorem step_eq (x0 : Vec Ideal S2048x3 .f32) (x1 : Vec Ideal S3x2048 .f32) (acc : Vec Ideal S2048 .f32) :
    step (F := Ideal) x0 x1 acc
      = minimumf acc (minimumf (minimumf (minimumf (minimumf (broadcast S2048 (Ideal.ofBits .f32 0x7F800000#32))
          (colMin (table (rows0 (F := Ideal) x0) negTwo x1))) (colMin (table (rows1 (F := Ideal) x0) negTwo x1)))
          (colMin (table (rows2 (F := Ideal) x0) negTwo x1))) (colMin (table (rows3 (F := Ideal) x0) negTwo x1))) := by
  unfold step k0_pay1 k0_pay7 k0_pay5 k0_pay10 k0_pay11 k0_pay12 k0_pay9 k0_pay8 k0_pay6 k0_pay4
  simp only [shapeCast_self]
  rfl

end Cert.KernelIdeal.Body

end
-- ==== Proof.KernelPoint.lean ====
/-
  One grid point of the kernel at a target of the block: the lower bounds of the new running minimum.

  The running minimum after the point has, at target `q`, the lower bounds of the running minimum before it that are lower
  bounds of all 2048 table entries of the point's surface block (`le_step`). The reset value is `+∞` (`fresh_apply`), and the
  output block adds the targets' squared norms (`emit_apply`).
-/
import proofs.«156038_j69054484185810_2_alg».proof.Proof.KernelStep

set_option maxRecDepth 16384

noncomputable section

namespace Cert.KernelIdeal.Body

open Idealize.ShloMosaic Idealize.ShloMosaic.ValueIdx
open Cert.KernelIdeal Cert.KernelIdeal.Gen Cert.Nearest

/-- The lower bounds of every entry, in column `q`, of the table of the run cut at row offset `o`: stated over the
    surface block's own rows. -/
theorem run_bound (x0 : Vec Ideal S2048x3 .f32) (x1 : Vec Ideal S3x2048 .f32) (q : Fin 2048) (z : EReal) (o : Nat)
    (ho : o + 512 ≤ 2048) (inb : ∀ a, (![o, 0] : Fin 2 → Nat) a + S512x3.size a ≤ S2048x3.size a) :
    (∀ r : Fin 512, z ≤ table (View.ld (Val := Elt Ideal) (e' := .f32) x0 (Rect.unit (s := S2048x3) ![o, 0] S512x3.size inb)) negTwo x1 (ix2 r q))
      ↔ ∀ r : Fin 512, z ≤ cross negTwo (fun k => x0 (ix2 (⟨o + r.val, by omega⟩ : Fin 2048) k)) (fun k => x1 (ix2 k q)) := by
  refine forall_congr' fun r => ?_
  rw [table_apply]
  rw [show (fun k : Fin 3 => View.ld (Val := Elt Ideal) (e' := .f32) x0 (Rect.unit (s := S2048x3) ![o, 0] S512x3.size inb) (ix2 r k))
      = fun k => x0 (ix2 (⟨o + r.val, by omega⟩ : Fin 2048) k) from funext fun k => run_apply x0 o ho inb r k]

/-- The lower bounds, at target `q`, of the column minimum of the table of the run cut at row offset `o`. -/
theorem le_runMin (x0 : Vec Ideal S2048x3 .f32) (x1 : Vec Ideal S3x2048 .f32) (q : Fin 2048) (z : EReal) (o : Nat)
    (ho : o + 512 ≤ 2048) (inb : ∀ a, (![o, 0] : Fin 2 → Nat) a + S512x3.size a ≤ S2048x3.size a) :
    z ≤ colMin (table (View.ld (Val := Elt Ideal) (e' := .f32) x0 (Rect.unit (s := S2048x3) ![o, 0] S512x3.size inb)) negTwo x1) (ix1 q)
      ↔ ∀ r : Fin 512, z ≤ cross negTwo (fun k => x0 (ix2 (⟨o + r.val, by omega⟩ : Fin 2048) k)) (fun k => x1 (ix2 k q)) :=
  (le_colMin _ q z).trans (run_bound x0 x1 q z o ho inb)

/-- The lower bounds of a minimum of `acc` with four vectors folded from `+∞`, at one entry. -/
theorem le_fold4 (acc m0 m1 m2 m3 : Vec Ideal S2048 .f32) (q : Fin 2048) (z : EReal) :
    z ≤ minimumf acc (minimumf (minimumf (minimumf (minimumf (broadcast S2048 (Ideal.ofBits .f32 0x7F800000#32)) m0) m1) m2) m3) (ix1 q)
      ↔ z ≤ acc (ix1 q) ∧ z ≤ m0 (ix1 q) ∧ z ≤ m1 (ix1 q) ∧ z ≤ m2 (ix1 q) ∧ z ≤ m3 (ix1 q) := by
  show z ≤ min (acc (ix1 q)) (min (min (min (min (Ideal.ofBits .f32 0x7F800000#32) (m0 (ix1 q))) (m1 (ix1 q))) (m2 (ix1 q))) (m3 (ix1 q))) ↔ _
  rw [ofBits_top]
  simp only [le_min_iff, le_top, true_and, and_assoc]

/-- At target `q` of the block, the running minimum after a grid point has the lower bounds of the running minimum before
    it that are lower bounds of the table entries of all 2048 surface points of the point's block. -/
theorem le_step (x0 : Vec Ideal S2048x3 .f32) (x1 : Vec Ideal S3x2048 .f32) (acc : Vec Ideal S2048 .f32) (q : Fin 2048) (z : EReal) :
    z ≤ step (F := Ideal) x0 x1 acc (ix1 q) ↔
      z ≤ acc (ix1 q) ∧ ∀ r : Fin 2048, z ≤ cross negTwo (fun k => x0 (ix2 r k)) (fun k => x1 (ix2 k q)) := by
  rw [step_eq]
  refine (le_fold4 acc _ _ _ _ q z).trans ?_
  refine (and_congr Iff.rfl (and_congr (le_runMin x0 x1 q z 0 (by omega) _) (and_congr (le_runMin x0 x1 q z 512 (by omega) _)
    (and_congr (le_runMin x0 x1 q z 1024 (by omega) _) (le_runMin x0 x1 q z 1536 (by omega) _))))).trans ?_
  constructor
  · rintro ⟨ha, h0, h1, h2, h3⟩
    exact ⟨ha, forall_rows_of_runs (fun r => z ≤ cross negTwo (fun k => x0 (ix2 r k)) (fun k => x1 (ix2 k q))) h0 h1 h2 h3⟩
  · rintro ⟨ha, h⟩
    exact ⟨ha, fun r => h _, fun r => h _, fun r => h _, fun r => h _⟩

/-- The reset value is `+∞` at every target. -/
theorem fresh_apply (q : Fin 2048) : fresh (F := Ideal) (ix1 q) = ⊤ := by
  unfold fresh k0_pay3
  rw [shapeCast_self]
  exact ofBits_top

/-- The output block at target `q`: the running minimum plus the target's squared norm. -/
theorem emit_apply (x1 : Vec Ideal S3x2048 .f32) (acc : Vec Ideal S2048 .f32) (q : Fin 2048) :
    emit (F := Ideal) x1 acc (ix1 q) = acc (ix1 q) + ∑ k : Fin 3, x1 (ix2 k q) * x1 (ix2 k q) := by
  unfold emit k0_pay2 k0_pay4
  simp only [shapeCast_self]
  refine congrArg (acc (ix1 q) + ·) ?_
  refine (Ideal.multiReduction_add_single (mulf x1 x1) _ reduces_S3x2048_S2048 _ _ (ix1 q)).trans ?_
  refine Finset.sum_congr rfl fun k _ => ?_
  have e : reduces_S3x2048_S2048.lift (ix1 q) k = ix2 (k : Fin 3) q := funext fun ax => Fin.ext (by
    match ax with
    | ⟨0, _⟩ => rfl
    | ⟨1, _⟩ => rfl)
  exact congrArg (fun i => x1 i * x1 i) e

end Cert.KernelIdeal.Body

end
-- ==== Proof.KernelAcc.lean ====
/-
  The running minimum across the grid.

  The grid has 8 × 8 points; point `n` works on target block `n / 8` and surface block `n % 8`. Surface point `p` of the
  point's block is row `2048·(n % 8) + p` of the flattened surfaces, target `q` of its block is column `2048·(n / 8) + q` of
  the transposed targets. Write `entry r j` for the kernel's table entry of surface row `r` against target column `j`.
  After point `n` the running minimum at `q` has as lower bounds the common lower bounds of `entry r j` over the first
  `2048·(n % 8 + 1)` surface rows (`le_acc`, by induction on the point: the first point of a target block starts from `+∞`,
  every other point from what the point before left). After the last point of a target block that is every surface row,
  and the block written out is the infimum over all rows plus the target's squared norm (`out_last`).
-/
import proofs.«156038_j69054484185810_2_alg».proof.Proof.KernelPoint

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Nearest

variable (m : (ℓ : Loc nD τ sig) → Buf (Elt Ideal) ℓ)

/-- Where each window's block sits at a grid point: the surface window moves with `n % 8`, the target and output
    windows with `n / 8`. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = t.val / 8 ∧ win0_2.index t (0 : Fin 1) = t.val / 8 :=
  (by decide +kernel : ∀ t : Fin grid0.N, _)

/-- The surface row under surface point `p` of point `n`'s block. -/
def row (n : ℕ) (p : Fin 2048) : Fin 16384 := ⟨2048 * (n % 8) + p.val, by have := p.isLt; omega⟩

/-- The target column under target `q` of point `n`'s block (reduced into range so that it is defined for every `n`). -/
def col (n : ℕ) (q : Fin 2048) : Fin 16384 := ⟨(2048 * (n / 8) + q.val) % 16384, Nat.mod_lt _ (by norm_num)⟩

/-- The surface block of a point reads the flattened surfaces at the block's rows. -/
theorem blk0_apply (c : Dev nD) (t : Fin cfg0.N) (p : Fin 2048) (k : Fin 3) :
    (iblk m c 0 t : Vec Ideal S2048x3 .f32) (ix2 p k) = V m c main_v0 (ix2 (row t.val p) k) := by
  unfold iblk
  rw [View.read_apply]
  show V m c main_v0 _ = V m c main_v0 _
  refine congrArg (V m c main_v0) (funext fun a => Fin.ext ?_)
  match a with
  | ⟨0, _⟩ => show win0_0.index t 0 * 2048 + 1 * p.val = 2048 * (t.val % 8) + p.val; rw [(idx_facts t).1]; omega
  | ⟨1, _⟩ => show win0_0.index t 1 * 3 + 1 * k.val = k.val; rw [(idx_facts t).2.1]; omega

/-- The target block of a point reads the transposed targets at the block's columns. -/
theorem blk1_apply (c : Dev nD) (t : Fin cfg0.N) (k : Fin 3) (q : Fin 2048) :
    (iblk m c 1 t : Vec Ideal S3x2048 .f32) (ix2 k q) = V m c main_v1 (ix2 k (col t.val q)) := by
  have hN : t.val < 64 := lt_of_lt_of_eq t.isLt (show cfg0.N = 64 from N_0)
  unfold iblk
  rw [View.read_apply]
  show V m c main_v1 _ = V m c main_v1 _
  refine congrArg (V m c main_v1) (funext fun a => Fin.ext ?_)
  match a with
  | ⟨0, _⟩ => show win0_1.index t 0 * 3 + 1 * k.val = k.val; rw [(idx_facts t).2.2.1]; omega
  | ⟨1, _⟩ =>
    show win0_1.index t 1 * 2048 + 1 * q.val = (2048 * (t.val / 8) + q.val) % 16384
    rw [(idx_facts t).2.2.2.1]; have := q.isLt; omega

/-- The kernel's table entry of surface row `r` against target column `j`, over the arrays as the region finds them. -/
def entry (c : Dev nD) (r j : Fin 16384) : EReal :=
  cross negTwo (fun k => V m c main_v0 (ix2 r k)) (fun k => V m c main_v1 (ix2 k j))

/-- One point's store into the running minimum, over the arrays. -/
theorem le_step_at (c : Dev nD) (t : Fin cfg0.N) (acc : Vec Ideal S2048 .f32) (q : Fin 2048) (z : EReal) :
    z ≤ step (F := Ideal) (iblk m c 0 t) (iblk m c 1 t) acc (ix1 q) ↔
      z ≤ acc (ix1 q) ∧ ∀ p : Fin 2048, z ≤ entry m c (row t.val p) (col t.val q) := by
  refine (le_step (iblk m c 0 t) (iblk m c 1 t) acc q z).trans (and_congr Iff.rfl (forall_congr' fun p => ?_))
  exact Iff.of_eq (congrArg (z ≤ ·) (congrArg₂ (cross negTwo) (funext fun k => blk0_apply m c t p k)
    (funext fun k => blk1_apply m c t k q)))

/-- The first `2048·(b+1)` surface rows are the first `2048·b` and the 2048 rows of block `b`. -/
theorem forall_lt_block (P : Fin 16384 → Prop) (b : ℕ) (hb : b < 8) :
    (∀ r : Fin 16384, r.val < 2048 * (b + 1) → P r)
      ↔ (∀ r : Fin 16384, r.val < 2048 * b → P r) ∧ ∀ p : Fin 2048, P ⟨2048 * b + p.val, by have := p.isLt; omega⟩ := by
  constructor
  · intro h
    exact ⟨fun r hr => h r (by omega), fun p => h _ (by have := p.isLt; show 2048 * b + p.val < _; omega)⟩
  · rintro ⟨h1, h2⟩ r hr
    by_cases hlt : r.val < 2048 * b
    · exact h1 r hlt
    · have := h2 ⟨r.val - 2048 * b, by omega⟩
      rwa [show (⟨2048 * b + (⟨r.val - 2048 * b, by omega⟩ : Fin 2048).val, by have := r.isLt; show 2048 * b + (r.val - 2048 * b) < 16384; omega⟩ : Fin 16384) = r
        from Fin.ext (by show 2048 * b + (r.val - 2048 * b) = r.val; omega)] at this

/-- A point's store extends a running minimum over the rows before the point's block to one over the rows through it. -/
theorem le_after (c : Dev nD) (t : Fin cfg0.N) (acc : Vec Ideal S2048 .f32) (q : Fin 2048) (z : EReal)
    (hacc : z ≤ acc (ix1 q) ↔ ∀ r : Fin 16384, r.val < 2048 * (t.val % 8) → z ≤ entry m c r (col t.val q)) :
    z ≤ step (F := Ideal) (iblk m c 0 t) (iblk m c 1 t) acc (ix1 q)
      ↔ ∀ r : Fin 16384, r.val < 2048 * (t.val % 8 + 1) → z ≤ entry m c r (col t.val q) :=
  (le_step_at m c t acc q z).trans ((and_congr hacc Iff.rfl).trans
    (forall_lt_block (fun r => z ≤ entry m c r (col t.val q)) (t.val % 8) (Nat.mod_lt _ (by norm_num))).symm)

/-- What the running minimum holds after the first point of a target block. -/
theorem scratch_first (c : Dev nD) (t : Fin cfg0.N) (h0 : t.val % 8 = 0) (h1 : ¬t.val % 8 = 7) :
    (outsAt0 m c t.val t.isLt).2 = step (iblk m c 0 t) (iblk m c 1 t) (fresh (F := Ideal)) := by
  rw [outsAt0_A m c t h0 h1]
  dsimp only
  exact scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- What it holds after a middle point. -/
theorem scratch_middle (c : Dev nD) (t : Fin cfg0.N) (h0 : ¬t.val % 8 = 0) (h1 : ¬t.val % 8 = 7) :
    (outsAt0 m c t.val t.isLt).2
      = step (iblk m c 0 t) (iblk m c 1 t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- What it holds after the last point of a target block, -/
theorem scratch_last (c : Dev nD) (t : Fin cfg0.N) (h0 : ¬t.val % 8 = 0) (h1 : t.val % 8 = 7) :
    (outsAt0 m c t.val t.isLt).2
      = step (iblk m c 0 t) (iblk m c 1 t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and what that point writes into the output block. -/
theorem out_last (c : Dev nD) (t : Fin cfg0.N) (h0 : ¬t.val % 8 = 0) (h1 : t.val % 8 = 7) :
    (outsAt0 m c t.val t.isLt).1
      = emit (iblk m c 1 t) (step (iblk m c 0 t) (iblk m c 1 t) (outsAt0 m c (t.val - 1) (Nat.lt_of_le_of_lt (Nat.sub_le _ _) t.isLt)).2) := by
  rw [outsAt0_C m c t h0 h1]
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.KernelIdeal.Acc

end
-- ==== Proof.KernelGrid.lean ====
/-
  The running minimum after every grid point, and the block the last point of a target block writes out.

  By induction on the point, the running minimum after point `n` has at target `q` the common lower bounds of the table
  entries of the first `2048·(n % 8 + 1)` surface rows against the target's column (`le_acc`). At the last point of a target
  block that is all 16384 rows, so the value is the infimum over all surface rows, and the output block holds that
  infimum plus the target's squared norm (`out_block`): the function `nearest` of the two arrays, read at the block's columns.
-/
import proofs.«156038_j69054484185810_2_alg».proof.Proof.KernelAcc

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Nearest

variable (m : (ℓ : Loc nD τ sig) → Buf (Elt Ideal) ℓ)

/-- After point `n` the running minimum at target `q` has the common lower bounds of the table entries of the surface rows
    seen so far in the target's block of points. -/
theorem le_acc (c : Dev nD) (n : ℕ) : ∀ (hn : n < cfg0.N) (q : Fin 2048) (z : EReal),
    z ≤ (outsAt0 m c n hn).2 (ix1 q) ↔ ∀ r : Fin 16384, r.val < 2048 * (n % 8 + 1) → z ≤ entry m c r (col n q) := by
  induction n with
  | zero =>
    intro hn q z
    rw [show (outsAt0 m c 0 hn).2 = _ from scratch_first m c ⟨0, hn⟩ (Nat.zero_mod 8) (by show ¬(0 % 8 = 7); decide)]
    exact le_after m c ⟨0, hn⟩ (fresh (F := Ideal)) q z (by
      rw [fresh_apply]
      exact ⟨fun _ r hr => absurd hr (by show ¬ r.val < 2048 * (0 % 8); omega), fun _ => le_top⟩)
  | succ n ih =>
    intro hn q z
    have hN : n + 1 < 64 := lt_of_lt_of_eq hn (show cfg0.N = 64 from N_0)
    by_cases h0 : (n + 1) % 8 = 0
    · have h1 : ¬(n + 1) % 8 = 7 := by omega
      rw [show (outsAt0 m c (n + 1) hn).2 = _ from scratch_first m c ⟨n + 1, hn⟩ h0 h1]
      exact le_after m c ⟨n + 1, hn⟩ (fresh (F := Ideal)) q z (by
        rw [fresh_apply]
        exact ⟨fun _ r hr => absurd hr (by show ¬ r.val < 2048 * ((n + 1) % 8); rw [h0]; omega), fun _ => le_top⟩)
    · have hprev : z ≤ (outsAt0 m c n (Nat.lt_of_succ_lt hn)).2 (ix1 q)
          ↔ ∀ r : Fin 16384, r.val < 2048 * ((n + 1) % 8) → z ≤ entry m c r (col (n + 1) q) := by
        have e1 : n % 8 + 1 = (n + 1) % 8 := by omega
        have e2 : col n q = col (n + 1) q := by
          refine Fin.ext ?_
          show (2048 * (n / 8) + q.val) % 16384 = (2048 * ((n + 1) / 8) + q.val) % 16384
          have : n / 8 = (n + 1) / 8 := by omega
          rw [this]
        rw [← e1, ← e2]
        exact ih (Nat.lt_of_succ_lt hn) q z
      by_cases h1 : (n + 1) % 8 = 7
      · rw [show (outsAt0 m c (n + 1) hn).2 = _ from scratch_last m c ⟨n + 1, hn⟩ h0 h1]
        exact le_after m c ⟨n + 1, hn⟩ _ q z hprev
      · rw [show (outsAt0 m c (n + 1) hn).2 = _ from scratch_middle m c ⟨n + 1, hn⟩ h0 h1]
        exact le_after m c ⟨n + 1, hn⟩ _ q z hprev

/-- The transposed targets as the region finds them, as extended reals. -/
abbrev targ (c : Dev nD) : S3x16384.Idx → EReal := V m c main_v1

/-- The kernel's nearest squared distance as one function of the flattened surfaces and the transposed targets: at
    target `j`, the infimum over all surface rows of the table entry, plus the target's squared norm. -/
def nearest (c : Dev nD) : S16384.Idx → EReal := fun j =>
  (⨅ r : Fin 16384, entry m c r ⟨(j 0).val, (j 0).isLt⟩)
    + ∑ k : Fin 3, targ m c (ix2 k (⟨(j 0).val, (j 0).isLt⟩ : Fin 16384)) * targ m c (ix2 k (⟨(j 0).val, (j 0).isLt⟩ : Fin 16384))

/-- The output block the last point of a target block writes is `nearest` at the block's columns. -/
theorem out_block (c : Dev nD) (t : Fin cfg0.N) (h1 : t.val % 8 = 7) (q : Fin 2048) :
    (outsAt0 m c t.val t.isLt).1 (ix1 q) = nearest m c (ix1 (col t.val q)) := by
  have h0 : ¬t.val % 8 = 0 := by omega
  rw [out_last m c t h0 h1, emit_apply, ← scratch_last m c t h0 h1]
  refine congrArg₂ (· + ·) ?_ (Finset.sum_congr rfl fun k _ => ?_)
  · refine eq_of_same_lower_bounds fun z => ?_
    rw [le_acc m c t.val t.isLt q z, le_iInf_iff]
    exact ⟨fun h r => h r (by have := r.isLt; omega), fun h r _ => h r⟩
  · rw [blk1_apply m c t k q]

end Cert.KernelIdeal.Acc

end
-- ==== Proof.KernelArray.lean ====
/-
  The kernel's result array and the program's result.

  Only the last point of each target block (`n % 8 = 7`) writes its output block back; the block of point `n` covers the
  targets `2048·(n / 8) … 2048·(n / 8) + 2047`, and the eight such blocks tile the 16384 targets. Each holds `nearest` at its
  targets, so the result array is `nearest` (`final`). The program then sums that array from zero (`total`), and that sum
  is what its result holds at the end of the run (`run`).
-/
import proofs.«156038_j69054484185810_2_alg».proof.Proof.KernelGrid
import Idealize.ShloMosaic.Lib.StableHlo.Run

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Nearest

variable (m : (ℓ : Loc nD τ sig) → Buf (Elt Ideal) ℓ) (ρ : Dev nD → PrngReg)

/-- A target is in point `t`'s output block iff it is in the block's range. -/
theorem mem_blk (t : Fin cfg0.N) (i : S16384.Idx) :
    i ∈ ((cfg0.win 2).blk t).view.set
      ↔ ∀ a : Fin 1, win0_2.index t a * S2048.size a ≤ (i a).val ∧ (i a).val < win0_2.index t a * S2048.size a + S2048.size a := by
  show i ∈ ((View.whole main_v2).slice (win0_2.rect t)).set ↔ _
  rw [View.set_slice_whole, Rect.mem_set_unit]
  exact Iff.rfl

/-- What a writing point writes back is its block of `nearest`. -/
theorem flushed_eq (c : Dev nD) (t : Fin cfg0.N) (hf : (cfg0.win 2).flush t = true) :
    (dats m 0 c).flushed 2 t = ((cfg0.win 2).blk t).view.read (Elt Ideal) (nearest m c) := by
  have h1 : t.val % 8 = 7 := (flush0_2 t).mp hf
  have hN : t.val < 64 := lt_of_lt_of_eq t.isLt (show cfg0.N = 64 from N_0)
  have key : ∀ y : S2048.Idx, (outsAt0 m c t.val t.isLt).1 y = nearest m c (((cfg0.win 2).blk t).view.emb y) := by
    intro y
    obtain ⟨q, rfl⟩ : ∃ q : Fin 2048, y = ix1 q := ⟨y 0, eq_ix1 y⟩
    rw [out_block m c t h1 q]
    refine congrArg (nearest m c) (funext fun a => Fin.ext ?_)
    match a with
    | ⟨0, _⟩ =>
      show (2048 * (t.val / 8) + q.val) % 16384 = win0_2.index t 0 * 2048 + 1 * q.val
      rw [(idx_facts t).2.2.2.2]; have := q.isLt; omega
  show (cfg0.win 2).cut (grid0.coords t) ((dats m 0 c).after 2 t) = _
  rw [after0_2]
  funext y
  rw [View.read_apply]
  exact key y

/-- Every target is in the output block of the last point of its target block. -/
theorem cover (i : S16384.Idx) : ∃ t : Fin cfg0.N, (cfg0.win 2).flush t = true ∧ i ∈ ((cfg0.win 2).blk t).view.set := by
  have hi : (i 0).val < 16384 := (i 0).isLt
  have hN : cfg0.N = 64 := N_0
  refine ⟨⟨8 * ((i 0).val / 2048) + 7, by rw [hN]; omega⟩, (flush0_2 _).mpr (by show (8 * ((i 0).val / 2048) + 7) % 8 = 7; omega), ?_⟩
  rw [mem_blk]
  intro a
  match a with
  | ⟨0, _⟩ =>
    show win0_2.index _ 0 * 2048 ≤ (i 0).val ∧ (i 0).val < win0_2.index _ 0 * 2048 + 2048
    rw [(idx_facts _).2.2.2.2]
    show (8 * ((i 0).val / 2048) + 7) / 8 * 2048 ≤ (i 0).val ∧ (i 0).val < (8 * ((i 0).val / 2048) + 7) / 8 * 2048 + 2048
    omega

/-- The result array after the region: `nearest` of the arrays the region found. -/
theorem final (c : Dev nD) : (dats m 0 c).arrAt 2 cfg0.N = nearest m c :=
  (dats m 0 c).arrAt_eq_of_cover 2 (nearest m c) (fun t hf => flushed_eq m c t hf) cover

/-- The sum of the nearest squared distances over all targets, from zero: the program's last operation. -/
def total (y : S16384.Idx → EReal) : S_.Idx → EReal :=
  Host.reduceAdd (F := Ideal) y (constant (F := Ideal) S_ .f32 0x00000000#32) reducesTo_S16384_S_d0 h_S_

/-- The program's result after the operations that follow the region. -/
theorem tail_eq (c : Dev nD) :
    Pipeline.afterTail₀ cfgs (dats m) 0 (V0 m) [hostOps1] c main_v3 = total (nearest m c) := by
  unfold Pipeline.afterTail₀
  show StableHlo.after hostOps1 _ (Proc.devRef .tc main_v3) = _
  after_results
  unfold total
  refine congrArg (fun y => Host.reduceAdd (F := Ideal) y (constant (F := Ideal) S_ .f32 0x00000000#32) reducesTo_S16384_S_d0 h_S_) ?_
  exact (Pipeline.withArrays_arr spec0 launch0.win.arr_inj c _ _ 2).trans (final m c)

/-- The run of the kernel's program, read: its result ends at the sum over the targets of `nearest`, its arguments
    unchanged. -/
theorem run : θ_run defs (onTc (τ := τ) (main (F := Ideal))) ⟨m, fun _ => 0, ρ⟩ fun r => ∀ c : Dev nD,
      r.2.mem ((c.tc : Thread nD τ).loc main_v3) = total (nearest m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefSide.lean ====
/-
  The reference's nearest squared distance, read at a target.

  The reference forms the whole table `dist (s, n, j) = (|a_{s,n}|² + |b_j|²) − 2·⟨a_{s,n}, b_j⟩` over the 4 surfaces, their 4096
  points and the 16384 targets (`dist_apply`), takes the minimum over the points of each surface and then over the
  surfaces, both from `+∞`. So at target `j` its result has as lower bounds the common lower bounds of `dist (s, n, j)` over
  all surfaces `s` and points `n` (`le_nearest`).
-/
import proofs.«156038_j69054484185810_2_alg».proof.Proof.Gen.ReferenceIdeal.Read
import proofs.«156038_j69054484185810_2_alg».proof.Proof.Consts
import proofs.«156038_j69054484185810_2_alg».proof.Proof.Lattice
import proofs.«156038_j69054484185810_2_alg».proof.Proof.LibLowerBounds
import Idealize.ShloMosaic.Lib.ValueIdx
import Idealize.ShloMosaic.PureOps.Ideal.Laws

noncomputable section

namespace Cert.ReferenceIdeal.Nearest

open Idealize.ShloMosaic Idealize.ShloMosaic.ValueIdx
open Cert.ReferenceIdeal Cert.ReferenceIdeal.Gen Cert.ReferenceIdeal.Read Cert.Nearest

/-- The reference's table at surface `s`, point `n`, target `j`. -/
theorem dist_apply (x0 : (⟨S4x4096x3, .f32⟩ : BufTy).Contents (Elt Ideal)) (x1 : (⟨S16384x3, .f32⟩ : BufTy).Contents (Elt Ideal))
    (s : Fin 4) (n : Fin 4096) (j : Fin 16384) :
    val_main_v12 (F := Ideal) x0 x1 (ix3 s n j)
      = ((Ideal.ofBits .f32 0x00000000#32 + ∑ k : Fin 3, x0 (ix3 s n k) * x0 (ix3 s n k))
          + (Ideal.ofBits .f32 0x00000000#32 + ∑ k : Fin 3, x1 (ix2 j k) * x1 (ix2 j k)))
        - Ideal.ofBits .f32 0x40000000#32 * ∑ k : Fin 3, x0 (ix3 s n k) * x1 (ix2 j k) := by
  have e1 : ∀ k : Fin 3, idx_main_v1 (idx_main_v5 (idx_main_v7 (ix3 s n j))) k = ix3 s n k := fun k => funext fun a => by
    match a with
    | ⟨0, _⟩ => rfl
    | ⟨1, _⟩ => rfl
    | ⟨2, _⟩ => rfl
  have e3 : ∀ k : Fin 3, idx_main_v3 (idx_main_v6 (idx_main_v8 (ix3 s n j))) k = ix2 j k := fun k => funext fun a => by
    match a with
    | ⟨0, _⟩ => rfl
    | ⟨1, _⟩ => rfl
  have el : ∀ k : Fin 3, lidx_main_v4 (ix3 s n j) k = ix3 s n k := fun k => funext fun a => by
    match a with
    | ⟨0, _⟩ => rfl
    | ⟨1, _⟩ => rfl
    | ⟨2, _⟩ => rfl
  have er : ∀ k : Fin 3, ridx_main_v4 (ix3 s n j) k = ix2 j k := fun k => funext fun a => by
    match a with
    | ⟨0, _⟩ => rfl
    | ⟨1, _⟩ => rfl
  rw [val_main_v12_apply, val_main_v9_apply, val_main_v11_apply, val_main_v7_apply, val_main_v5_apply, val_main_v1_apply,
    val_main_v8_apply, val_main_v6_apply, val_main_v3_apply, val_main_v10_apply, val_main_v4_apply]
  simp only [e1, e3, el, er, val_main_v0_apply, val_main_v2_apply, val_main_cst_apply, val_main_cst_0_apply,
    val_main_cst_1_apply, Ideal.mulf_def, Ideal.addf_def, Ideal.subf_def, Ideal.ofBits_def]

/-- A host minimum over one axis, from `+∞`: the lower bounds of the fold. -/
theorem le_reduce_min {s t' : Shape} {a : Fin s.rank} (x : s.Idx → Ideal .f32) (h' : s.ReducesTo [a] t') (h : s.Reduces [a] t')
    (j : t'.Idx) (z : EReal) :
    z ≤ Host.reduce (FloatOps.minimumf (F := Ideal) (φ := .f32)) x (constant (F := Ideal) S_ .f32 0x7F800000#32) h' h_S_ j
      ↔ ∀ k : Fin (s.size a), z ≤ x (h.lift j k) :=
  Cert.LibLowerBounds.le_hostReduce_min x _ h' h h_S_ ofBits_top j z

/-- The minimum over the four surfaces, read at target `j`. -/
theorem le_min_surfaces (y : S4x16384.Idx → Ideal .f32) (j : Fin 16384) (z : EReal) :
    z ≤ Host.reduce (FloatOps.minimumf (F := Ideal) (φ := .f32)) y (constant (F := Ideal) S_ .f32 0x7F800000#32)
        reducesTo_S4x16384_S16384_d0 h_S_ (ix1 j)
      ↔ ∀ s : Fin 4, z ≤ y (ix2 s j) := by
  refine (le_reduce_min y reducesTo_S4x16384_S16384_d0 (by decide) (ix1 j) z).trans ?_
  show (∀ s : Fin 4, z ≤ y ((by decide : S4x16384.Reduces [0] S16384).lift (ix1 j) s)) ↔ _
  refine forall_congr' fun s => ?_
  rw [show (by decide : S4x16384.Reduces [0] S16384).lift (ix1 j) s = ix2 s j from funext fun a => Fin.ext (by
    match a with
    | ⟨0, _⟩ => rfl
    | ⟨1, _⟩ => rfl)]

/-- The minimum over the 4096 points of surface `s`, read at target `j`. -/
theorem le_min_points (y : S4x4096x16384.Idx → Ideal .f32) (s : Fin 4) (j : Fin 16384) (z : EReal) :
    z ≤ Host.reduce (FloatOps.minimumf (F := Ideal) (φ := .f32)) y (constant (F := Ideal) S_ .f32 0x7F800000#32)
        reducesTo_S4x4096x16384_S4x16384_d1 h_S_ (ix2 s j)
      ↔ ∀ n : Fin 4096, z ≤ y (ix3 s n j) := by
  refine (le_reduce_min y reducesTo_S4x4096x16384_S4x16384_d1 (by decide) (ix2 s j) z).trans ?_
  show (∀ n : Fin 4096, z ≤ y ((by decide : S4x4096x16384.Reduces [1] S4x16384).lift (ix2 s j) n)) ↔ _
  refine forall_congr' fun n => ?_
  rw [show (by decide : S4x4096x16384.Reduces [1] S4x16384).lift (ix2 s j) n = ix3 s n j from funext fun a => Fin.ext (by
    match a with
    | ⟨0, _⟩ => rfl
    | ⟨1, _⟩ => rfl
    | ⟨2, _⟩ => rfl)]

/-- The lower bounds of the reference's nearest squared distance at target `j`: those of every entry of its table in
    column `j`. -/
theorem le_nearest (x0 : (⟨S4x4096x3, .f32⟩ : BufTy).Contents (Elt Ideal)) (x1 : (⟨S16384x3, .f32⟩ : BufTy).Contents (Elt Ideal))
    (j : Fin 16384) (z : EReal) :
    z ≤ val_main_v14 (F := Ideal) x0 x1 (ix1 j) ↔ ∀ (s : Fin 4) (n : Fin 4096), z ≤ val_main_v12 (F := Ideal) x0 x1 (ix3 s n j) := by
  unfold val_main_v14 val_main_cst_3
  refine (le_min_surfaces _ j z).trans (forall_congr' fun s => ?_)
  unfold val_main_v13 val_main_cst_2
  exact le_min_points _ s j z

end Cert.ReferenceIdeal.Nearest

end
-- ==== Proof.Finite.lean ====
/-
  What the precondition gives: every coordinate of every surface point and of every target is a real number.

  The precondition compares the absolute value of every element of the two inputs with `+∞` and takes the conjunction of
  all the comparisons; its being true says each comparison is, and an extended real whose absolute value is below `+∞` is a
  real number.
-/
import proofs.«156038_j69054484185810_2_alg».proof.Pre_finite_inputs
import proofs.«156038_j69054484185810_2_alg».proof.Proof.LibReal
import Idealize.ShloMosaic.Lib.ReduceAll
import Idealize.ShloMosaic.Lib.ValueIdx

noncomputable section

namespace Cert.Nearest

open Idealize.ShloMosaic Cert.LibReal

/-- Under the precondition every element of both inputs is a real number. -/
theorem inputs_real [Cert.Pre_finite_inputs.Facts] (a0 : FVec Ideal Cert.Pre_finite_inputs.S4x4096x3 .f32)
    (a1 : FVec Ideal Cert.Pre_finite_inputs.S16384x3 .f32)
    (h : Cert.Pre_finite_inputs.fn (F := Ideal) a0 a1 = fun _ => 1#1) : (∀ i, IsReal (a0 i)) ∧ ∀ i, IsReal (a1 i) := by
  have h0 := congrFun h ValueIdx.ix0
  dsimp only [Cert.Pre_finite_inputs.fn] at h0
  obtain ⟨h3, h7⟩ := IntOp.andi_eq_one.mp h0
  exact ⟨fun i => elem_real _ a0 i (Host.reduce_andi_all _ _ _ _ ValueIdx.ix0 h3 i),
    fun i => elem_real _ a1 i (Host.reduce_andi_all _ _ _ _ ValueIdx.ix0 h7 i)⟩

end Cert.Nearest

end
-- ==== Proof.Bridge.lean ====
/-
  The two nearest squared distances are one function of the inputs.

  The kernel sees the surfaces flattened to 16384 rows (row `4096·s + n` is point `n` of surface `s`) and the targets
  transposed (column `j` is target `j`). At target `j` its value is the infimum over the rows of
  `|a|² + Σ_k (−2·a_k)·b_k`, plus `|b|²`; the reference's is the minimum over surfaces and points of
  `(|a|² + |b|²) − 2·⟨a, b⟩`. For real coordinates the two expressions under the minimum agree entry by entry (adding
  `|b|²` to every candidate commutes with taking the least), so the two values have the same lower bounds and are equal.
-/
import proofs.«156038_j69054484185810_2_alg».proof.Proof.KernelArray
import proofs.«156038_j69054484185810_2_alg».proof.Proof.RefSide
import proofs.«156038_j69054484185810_2_alg».proof.Proof.Finite
import Idealize.ShloMosaic.Lib.ValueLayout

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Body Cert.Nearest Cert.LibReal

variable (m : (ℓ : Loc nD τ sig) → Buf (Elt Ideal) ℓ)

/-- The array the surface window reads is the surfaces reshaped to `[16384, 3]`. -/
theorem surf_eq (c : Dev nD) :
    (V m c main_v0 : S16384x3.Idx → EReal)
      = shapeCast S16384x3 (m ((c : Thread nD τ).loc main_arg0)) shapeCasts_S4x4096x3_S16384x3 := by
  show StableHlo.after hostOps0 (fun b => m (c, b)) (Proc.devRef .tc main_v0) = _
  after_results
  rfl

/-- The array the target window reads is the targets transposed. -/
theorem targ_eq (c : Dev nD) :
    (V m c main_v1 : S3x16384.Idx → EReal)
      = transpose S3x16384 [1, 0] (m ((c : Thread nD τ).loc main_arg1)) transposes_S16384x3_S3x16384_1_0 := by
  show StableHlo.after hostOps0 (fun b => m (c, b)) (Proc.devRef .tc main_v1) = _
  after_results

/-- Row `4096·s + n` of the flattened surfaces is point `n` of surface `s`. -/
theorem surf_apply (c : Dev nD) (s : Fin 4) (n : Fin 4096) (k : Fin 3) :
    (V m c main_v0 : S16384x3.Idx → EReal) (ix2 (⟨4096 * s.val + n.val, by omega⟩ : Fin 16384) k)
      = (m ((c : Thread nD τ).loc main_arg0) : S4x4096x3.Idx → EReal) (ix3 s n k) := by
  rw [surf_eq]
  refine shapeCast_apply _ _ _ (ix3 s n k) ?_
  show ((⟨3, ![4, 4096, 3]⟩ : Shape).rowMajor (ix3 s n k)).val
    = ((⟨2, ![16384, 3]⟩ : Shape).rowMajor (ix2 (⟨4096 * s.val + n.val, by omega⟩ : Fin 16384) k)).val
  rw [Shape.rowMajor_val_three, Shape.rowMajor_val_two]
  show (s.val * 4096 + n.val) * 3 + k.val = (4096 * s.val + n.val) * 3 + k.val
  omega

/-- Column `j` of the transposed targets is target `j`. -/
theorem targ_apply (c : Dev nD) (k : Fin 3) (j : Fin 16384) :
    (V m c main_v1 : S3x16384.Idx → EReal) (ix2 k j)
      = (m ((c : Thread nD τ).loc main_arg1) : S16384x3.Idx → EReal) (ix2 j k) := by
  rw [targ_eq]
  exact transpose_ix2_apply _ transposes_S16384x3_S3x16384_1_0 k j

/-- The 16384 surface rows are the 4096 points of each of the 4 surfaces. -/
theorem forall_rows_iff (P : Fin 16384 → Prop) :
    (∀ r : Fin 16384, P r) ↔ ∀ (s : Fin 4) (n : Fin 4096), P ⟨4096 * s.val + n.val, by omega⟩ := by
  constructor
  · intro h s n; exact h _
  · intro h r
    have := h ⟨r.val / 4096, by have := r.isLt; omega⟩ ⟨r.val % 4096, by omega⟩
    rwa [show (⟨4096 * (⟨r.val / 4096, by have := r.isLt; omega⟩ : Fin 4).val + (⟨r.val % 4096, by omega⟩ : Fin 4096).val, by
        have := r.isLt; show 4096 * (r.val / 4096) + r.val % 4096 < 16384; omega⟩ : Fin 16384) = r
      from Fin.ext (by show 4096 * (r.val / 4096) + r.val % 4096 = r.val; omega)] at this

/-- For real inputs the kernel's and the reference's nearest squared distances agree at every target. -/
theorem nearest_eq (c : Dev nD)
    (h0 : ∀ i, IsReal ((m ((c : Thread nD τ).loc main_arg0) : S4x4096x3.Idx → EReal) i))
    (h1 : ∀ i, IsReal ((m ((c : Thread nD τ).loc main_arg1) : S16384x3.Idx → EReal) i)) (j : Fin 16384) :
    nearest m c (ix1 j)
      = Cert.ReferenceIdeal.Read.val_main_v14 (F := Ideal) (m ((c : Thread nD τ).loc main_arg0))
          (m ((c : Thread nD τ).loc main_arg1)) (ix1 j) := by
  refine eq_of_same_lower_bounds fun z => ?_
  rw [Cert.ReferenceIdeal.Nearest.le_nearest]
  show z ≤ (⨅ r : Fin 16384, entry m c r j) + ∑ k : Fin 3, targ m c (ix2 k j) * targ m c (ix2 k j) ↔ _
  rw [le_add_iff_of_glb (fun r : Fin 16384 => entry m c r j) _ _ (fun z' => le_iInf_iff) z, forall_rows_iff]
  refine forall_congr' fun s => forall_congr' fun n => ?_
  rw [Cert.ReferenceIdeal.Nearest.dist_apply]
  choose a ha using fun k : Fin 3 => h0 (ix3 s n k)
  choose b hb using fun k : Fin 3 => h1 (ix2 j k)
  have eA : ∀ k : Fin 3, (V m c main_v0 : S16384x3.Idx → EReal) (ix2 (⟨4096 * s.val + n.val, by omega⟩ : Fin 16384) k) = (a k : EReal) :=
    fun k => (surf_apply m c s n k).trans (ha k)
  have eB : ∀ k : Fin 3, (V m c main_v1 : S3x16384.Idx → EReal) (ix2 k j) = (b k : EReal) :=
    fun k => (targ_apply m c k j).trans (hb k)
  have L : entry m c ⟨4096 * s.val + n.val, by omega⟩ j + ∑ k : Fin 3, targ m c (ix2 k j) * targ m c (ix2 k j)
      = cross ((-2 : ℝ) : EReal) (fun k => (a k : EReal)) (fun k => (b k : EReal)) + ∑ k : Fin 3, (b k : EReal) * (b k : EReal) := by
    unfold entry targ negTwo
    rw [ofBits_neg_two]
    simp only [eA, eB]
  rw [L, cross_add_sqnorm, ofBits_zero, ofBits_two]
  simp only [ha, hb]

/-- So the two programs' results — each the sum from zero of its nearest squared distances over the targets — agree. -/
theorem result_eq (c : Dev nD)
    (h0 : ∀ i, IsReal ((m ((c : Thread nD τ).loc main_arg0) : S4x4096x3.Idx → EReal) i))
    (h1 : ∀ i, IsReal ((m ((c : Thread nD τ).loc main_arg1) : S16384x3.Idx → EReal) i)) :
    Cert.ReferenceIdeal.Read.val_main_v15 (F := Ideal) (m ((c : Thread nD τ).loc main_arg0)) (m ((c : Thread nD τ).loc main_arg1))
      = total (nearest m c) := by
  have e : Cert.ReferenceIdeal.Read.val_main_v14 (F := Ideal) (m ((c : Thread nD τ).loc main_arg0)) (m ((c : Thread nD τ).loc main_arg1))
      = nearest m c := funext fun i => by
    obtain ⟨j, rfl⟩ : ∃ j : Fin 16384, i = ix1 j := ⟨i 0, eq_ix1 i⟩
    exact (nearest_eq m c h0 h1 j).symm
  unfold Cert.ReferenceIdeal.Read.val_main_v15 Cert.ReferenceIdeal.Read.val_main_cst_4 total
  rw [e]

end Cert.KernelIdeal.Acc

end
-- ==== Proof.lean ====
/-
  The nearest-surface-point kernel against its reference: both return, for 4 clouds of 4096 surface points and 16384
  targets in three dimensions, the sum over the targets of the squared distance to the nearest surface point of any cloud.

  The reference forms every squared distance as `(|a|² + |b|²) − 2·⟨a, b⟩`, takes the minimum over the points of each cloud,
  then over the clouds, and sums over the targets. The kernel flattens the clouds to 16384 rows, walks the targets in 8
  blocks and the rows in 8 blocks, and keeps for each target a running minimum of `|a|² + Σ_k (−2·a_k)·b_k`; only after the
  last row block does it add `|b|²`, which does not depend on the row. Over the extended reals, with every input coordinate a
  real number (the precondition), the two quantities under the minimum agree row by row, adding `|b|²` commutes with taking
  the least of finitely many candidates, and a minimum taken in blocks from `+∞` is the infimum over all rows; so the two
  arrays of nearest distances are equal, and so are their sums.

  The three frames: the two kernel programs' are their generated frame runs; the reference's is its generated run with the
  result dropped. The ideal pass rewrote nothing, so `preserves` is trivial.
-/
import proofs.«156038_j69054484185810_2_alg».proof.Defs
import proofs.«156038_j69054484185810_2_alg».proof.Proof.Gen.Kernel
import proofs.«156038_j69054484185810_2_alg».proof.Proof.Gen.Kernel.Frame
import proofs.«156038_j69054484185810_2_alg».proof.Proof.Gen.KernelIdeal
import proofs.«156038_j69054484185810_2_alg».proof.Proof.Gen.KernelIdeal.Frame
import proofs.«156038_j69054484185810_2_alg».proof.Proof.Gen.ReferenceIdeal
import proofs.«156038_j69054484185810_2_alg».proof.Proof.Gen.ReferenceIdeal.Run
import proofs.«156038_j69054484185810_2_alg».proof.Proof.Gen.ReferenceIdeal.Read
import proofs.«156038_j69054484185810_2_alg».proof.Proof.Gen.Pre_finite_inputs
import proofs.«156038_j69054484185810_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the sum over the targets of the kernel's nearest squared distances: the
    kernel by its run, the reference because under the precondition its own nearest distances are the same numbers. -/
theorem algebraic : Cert.algebraic_KernelIdeal_ReferenceIdeal := by
  intro m ρ m' ρ' hpre hagree
  refine ⟨fun c => Cert.KernelIdeal.Acc.total (Cert.KernelIdeal.Acc.nearest m c), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Nearest.inputs_real _ _ (hpre c)
  rw [(hagree c).1, (hagree c).2]
  exact (Cert.ReferenceIdeal.Read.val_main_v15_eq _ _).trans (Cert.KernelIdeal.Acc.result_eq m c h0 h1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
